-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Spec.lean ====
/-
  The mathematics of the certificate, free of any program.

  A weight w is QUANTISED to the half-integer grid inside [-1/2, 1/2]:
      quant w = roundHalfEven (min (1/2) (max (-1/2) w) * 2) / 2
  and the layer is the matrix product of the activations with the quantised weights:
      dense x w (r, c) = sum over k < 1024 of x (r, k) * quant (w (k, c)).

  One program multiplies by quant w itself; the other by the "straight-through" form w + (quant w - w), which
  differentiates as the identity but has the same value. On the extended reals that identity,
      w + (q - w) = q,
  holds for every q as soon as w is a real number (for w = +inf the left side is +inf + -inf, which is not q):
  this is the one place where the finiteness of the weights is used.
-/
import Idealize.ShloMosaic.PureOps.Ideal
import Idealize.ShloMosaic.Lib.ValueIdx

noncomputable section

namespace Cert.QuantDense

open Idealize.ShloMosaic Idealize.ShloMosaic.ValueIdx

/-- The weight quantiser on one extended real: clip to [-1/2, 1/2], scale by 2, round to the nearest integer with ties
    to even, halve. The three literals are the f32 words of 1/2, -1/2 and 2; they are the same words wherever the
    quantiser occurs, so they are never evaluated. -/
def quant (w : EReal) : EReal :=
  Ideal.div
    (Ideal.liftRound Ideal.roundHalfEven
      (min (Ideal.ofBits .f32 0x3F000000#32) (max (Ideal.ofBits .f32 0xBF000000#32) w) * Ideal.ofBits .f32 0x40000000#32))
    (Ideal.ofBits .f32 0x40000000#32)

/-- The layer: entry (r, c) of the product of the [16384, 1024] activations with the quantised [1024, 1024] weights. -/
def dense (x : (⟨2, ![16384, 1024]⟩ : Shape).Idx → EReal) (w : (⟨2, ![1024, 1024]⟩ : Shape).Idx → EReal) :
    (⟨2, ![16384, 1024]⟩ : Shape).Idx → EReal :=
  fun i => ∑ k : Fin 1024,
    x (ix2 (n0 := 16384) (n1 := 1024) (i 0) k) * quant (w (ix2 (n0 := 1024) (n1 := 1024) k (i 1)))

/-- Adding to a REAL number w the difference q - w gives back q, for every extended real q: at q = -inf or +inf both
    sides are that infinity, and at a real q it is the identity of the reals. -/
theorem add_sub_cancel_of_real (r : ℝ) (q : EReal) : (r : EReal) + (q - (r : EReal)) = q := by
  induction q using EReal.rec with
  | bot => rw [EReal.bot_sub, EReal.add_bot]
  | top => rw [EReal.top_sub_coe, EReal.coe_add_top]
  | coe q => rw [← EReal.coe_sub, ← EReal.coe_add]; congr 1; ring

end Cert.QuantDense

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.KernelBody.lean ====
/-
  What one run of the kernel body stores, index by index.

  The body loads the whole [1024, 1024] weight matrix and a [512, 1024] block of activations, quantises every weight
  (clip, scale by 2, round half to even, halve), and multiplies the block by the quantised matrix into a zero
  accumulator. The two narrowings to bf16 are the identity on extended reals. So entry (p, q) of the stored block is
  the sum over k of activation (p, k) times the quantised weight (k, q).
-/
import proofs.«129732_j12446815224546_1_alg».proof.Proof.Gen.KernelIdeal.Skeleton
import proofs.«129732_j12446815224546_1_alg».proof.Proof.Spec
import proofs.«129732_j12446815224546_1_alg».proof.Proof.LibMatmulRows

noncomputable section

namespace Cert.KernelIdeal.Body

open Cert.KernelIdeal Cert.KernelIdeal.Gen Idealize.ShloMosaic Idealize.ShloMosaic.ValueIdx Cert.QuantDense

/-- The product's left free axis: row `i 0` of the output reads row `i 0` of the left operand. -/
theorem lhs_free (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- The product's right free axis: column `i 1` of the output reads column `i 1` of the right operand. -/
theorem rhs_free (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The stored block at (p, q): the sum over k of the activation block at (p, k) times the quantised weight at (k, q). -/
theorem stored_apply (wts : Vec Ideal S1024x1024 .f32) (act : Vec Ideal S512x1024 .f32) (j : S512x1024.Idx) :
    k0_pay1 (F := Ideal) wts act j
      = ∑ k : Fin 1024, act (ix2 (n0 := 512) (n1 := 1024) (j 0) k) * quant (wts (ix2 (n0 := 1024) (n1 := 1024) k (j 1))) := by
  unfold k0_pay1
  exact MatmulRows.matmul_zero_rows dot_S512x1024_S1024x1024_S512x1024_1_0_0_1_n_n none rfl rfl rfl rfl lhs_free rhs_free
    _ _ j _ _ (fun _ => rfl) (fun _ => rfl)

end Cert.KernelIdeal.Body

end
-- ==== Proof.KernelArray.lean ====
/-
  From what each grid point writes back to the whole result array.

  The grid has 32 points. Point t stages rows 512 t .. 512 t + 511 of the activations (all 1024 columns) and the whole
  weight matrix, and writes back rows 512 t .. 512 t + 511 of the result. Entry (p, q) of the block the body stores
  is the sum over k of activation (512 t + p, k) times the quantised weight (k, q): that is entry (512 t + p, q) of
  `dense` of the two argument arrays, so point t writes back block t of `dense`. Row r of the result lies in the
  block of point r / 512, so the 32 blocks cover the array, and the array ends holding `dense` of the arguments.
-/
import proofs.«129732_j12446815224546_1_alg».proof.Proof.Gen.KernelIdeal.Value
import proofs.«129732_j12446815224546_1_alg».proof.Proof.KernelBody
import Idealize.ShloMosaic.Lib.Pipeline.Value

noncomputable section

namespace Cert.KernelIdeal.Array

open Cert.KernelIdeal Cert.KernelIdeal.Gen Cert.KernelIdeal.Value Idealize.ShloMosaic Idealize.ShloMosaic.TcCoe Idealize.SL.Sem
open Idealize.ShloMosaic.ValueIdx Cert.QuantDense
open Idealize.ShloMosaic.Pipeline (Dat)

variable (m : (ℓ : Loc nD τ sig) → Buf (Elt Ideal) ℓ) (ρ : Dev nD → PrngReg)

/-- The body's rectangles start at the origin of their buffers. -/
theorem origin : (![0, 0] : Fin 2 → Nat) = fun _ => 0 := funext fun a => by fin_cases a <;> rfl

/-- The three index maps, decided over the 32 grid points: the activations' and the result's block row is the point,
    their block column is 0, and the weights' block is always (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point t, at (p, k), is the activations at row 512 t + p, column k. -/
theorem act_block_apply (c : Dev nD) (t : Fin cfg0.N) (y : S512x1024.Idx) (i : S16384x1024.Idx)
    (h0 : (i 0).val = 512 * t.val + (y 0).val) (h1 : (i 1).val = (y 1).val) :
    (iblk m c 0 t : Vec Ideal S512x1024 .f32) y = (m ((c : Thread nD τ).loc main_arg0) : S16384x1024.Idx → Elt Ideal .f32) i := by
  obtain ⟨e0, e1, -⟩ := index_facts t
  unfold iblk
  rw [View.read_apply]
  show V m c main_arg0 _ = m (c.tc.loc main_arg0) _
  unfold V
  congr 1
  funext a
  apply Fin.ext
  match a with
  | ⟨0, _⟩ => show win0_0.index t 0 * 512 + 1 * (y 0).val = (i 0).val; rw [e0, h0]; omega
  | ⟨1, _⟩ => show win0_0.index t 1 * 1024 + 1 * (y 1).val = (i 1).val; rw [e1, h1]; omega

/-- The weights' block at every point is the whole weight matrix. -/
theorem wts_block_apply (c : Dev nD) (t : Fin cfg0.N) (y : S1024x1024.Idx) :
    (iblk m c 1 t : Vec Ideal S1024x1024 .f32) y = (m ((c : Thread nD τ).loc main_arg1) : S1024x1024.Idx → Elt Ideal .f32) y := by
  obtain ⟨-, -, e0, e1, -⟩ := index_facts t
  unfold iblk
  rw [View.read_apply]
  show V m c main_arg1 _ = m (c.tc.loc main_arg1) _
  unfold V
  congr 1
  funext a
  apply Fin.ext
  match a with
  | ⟨0, _⟩ => show win0_1.index t 0 * 1024 + 1 * (y 0).val = (y 0).val; rw [e0]; omega
  | ⟨1, _⟩ => show win0_1.index t 1 * 1024 + 1 * (y 1).val = (y 1).val; rw [e1]; omega

/-- What point t writes back is block t of `dense` of the two argument arrays. -/
theorem flushed_eq (c : Dev nD) (t : Fin cfg0.N) :
    (dats m 0 c).flushed 2 t = ((cfg0.win 2).blk t).view.read (Elt Ideal)
      (dense (m ((c : Thread nD τ).loc main_arg0)) (m ((c : Thread nD τ).loc main_arg1))) := by
  rw [flushed2]
  unfold out0_2
  rw [View.canon_unit_zero origin]
  simp only [View.ld_unit_zero (S := S1024x1024) origin, View.ld_unit_zero (S := S512x1024) origin]
  obtain ⟨-, -, -, -, e0, e1⟩ := index_facts t
  funext j
  show k0_pay1 (F := Ideal) (iblk m c 1 t) (iblk m c 0 t) j
    = dense (m ((c : Thread nD τ).loc main_arg0)) (m ((c : Thread nD τ).loc main_arg1)) (((cfg0.win 2).blk t).view.emb j)
  refine (Body.stored_apply _ _ j).trans ?_
  unfold dense
  refine Finset.sum_congr rfl fun k _ => ?_
  have hr : ((((cfg0.win 2).blk t).view.emb j) 0).val = 512 * t.val + (j 0).val := by
    show win0_2.index t 0 * 512 + 1 * (j 0).val = _; rw [e0]; omega
  have hc : ((((cfg0.win 2).blk t).view.emb j) 1).val = (j 1).val := by
    show win0_2.index t 1 * 1024 + 1 * (j 1).val = _; rw [e1]; omega
  have ha := act_block_apply m c t (ix2 (n0 := 512) (n1 := 1024) (j 0) k)
    (ix2 (n0 := 16384) (n1 := 1024) ((((cfg0.win 2).blk t).view.emb j) 0) k) hr rfl
  have hw := wts_block_apply m c t (ix2 (n0 := 1024) (n1 := 1024) k (j 1))
  have hq : (ix2 (n0 := 1024) (n1 := 1024) k (j 1)) = ix2 (n0 := 1024) (n1 := 1024) k ((((cfg0.win 2).blk t).view.emb j) 1) :=
    funext fun a => Fin.ext (by match a with | ⟨0, _⟩ => rfl | ⟨1, _⟩ => exact hc.symm)
  rw [ha, hw, hq]

/-- An index of the result is in point t's block iff each coordinate is in the block's range on its axis. -/
theorem mem_block (t : Fin cfg0.N) (i : S16384x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- Every index of the result is in the block of the point (its row) / 512. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 32 := N_0
  have ht : (i 0).val / 512 < cfg0.N := by rw [hN]; omega
  obtain ⟨-, -, -, -, e0, e1⟩ := index_facts ⟨(i 0).val / 512, ht⟩
  refine ⟨⟨(i 0).val / 512, ht⟩, flush0_2 _, ?_⟩
  rw [mem_block]
  intro a
  match a with
  | ⟨0, _⟩ =>
    show win0_2.index ⟨(i 0).val / 512, ht⟩ 0 * 512 ≤ (i 0).val ∧ (i 0).val < win0_2.index ⟨(i 0).val / 512, ht⟩ 0 * 512 + 512
    rw [e0]; show (i 0).val / 512 * 512 ≤ (i 0).val ∧ (i 0).val < (i 0).val / 512 * 512 + 512; omega
  | ⟨1, _⟩ =>
    show win0_2.index ⟨(i 0).val / 512, ht⟩ 1 * 1024 ≤ (i 1).val ∧ (i 1).val < win0_2.index ⟨(i 0).val / 512, ht⟩ 1 * 1024 + 1024
    rw [e1]; omega

/-- The result array after the run is `dense` of the two argument arrays. -/
theorem final (c : Dev nD) : (dats m 0 c).arrAt 2 cfg0.N
    = dense (m ((c : Thread nD τ).loc main_arg0)) (m ((c : Thread nD τ).loc main_arg1)) :=
  (dats m 0 c).arrAt_eq_of_cover 2 _ (fun t _ => flushed_eq m c t) covered

/-- The kernel's run, read: the result array at `dense` of the arguments, the arguments unchanged. -/
theorem run : θ_run defs (onTc (τ := τ) (main (F := Ideal))) ⟨m, fun _ => 0, ρ⟩ fun r => ∀ c : Dev nD,
      r.2.mem ((c : Thread nD τ).loc main_v0)
        = dense (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Array

end
-- ==== Proof.ReferenceValue.lean ====
/-
  The reference program's result, index by index, is the layer `dense` of the specification when every weight is real.

  The reference builds its weight matrix in three steps: the quantised weights (clip, scale by 2, round half to even,
  halve), then their difference from the raw weights, then the raw weights plus that difference. At an index whose raw
  weight is real the last two steps cancel, so the matrix the reference multiplies by is the quantised one; its
  dot_general is then the sum over the contracted axis of activation times quantised weight.
-/
import proofs.«129732_j12446815224546_1_alg».proof.Proof.Gen.ReferenceIdeal.Read
import proofs.«129732_j12446815224546_1_alg».proof.Proof.Spec

noncomputable section

namespace Cert.ReferenceIdeal.RefValue

open Cert.ReferenceIdeal Cert.ReferenceIdeal.Read Idealize.ShloMosaic Idealize.ShloMosaic.ValueIdx Cert.QuantDense

/-- The reference's halved, rounded, scaled, clipped weight at an index is the specification's quantiser of the raw
    weight there: the same operations on the same three literals, the splats read at the scalar they broadcast. -/
theorem quantised_apply (x1 : (⟨S1024x1024, .f32⟩ : BufTy).Contents (Elt Ideal)) (j : S1024x1024.Idx) :
    val_main_v5 (F := Ideal) x1 j = quant (x1 j) := by
  rw [val_main_v5_apply, val_main_v3_apply, val_main_v2_apply, val_main_v0_apply, val_main_call0_v2_apply,
    val_main_call0_v4_apply, val_main_call0_v3_apply, val_main_cst_0_apply, val_main_call0_v1_apply,
    val_main_call0_v0_apply, val_main_cst_apply, val_main_v1_apply, val_main_cst_1_apply, val_main_v4_apply,
    val_main_cst_2_apply]
  rfl

/-- The matrix the reference multiplies by — raw weight plus (quantised minus raw) — is the quantised weight at every
    index whose raw weight is a real number. -/
theorem straight_through_apply (x1 : (⟨S1024x1024, .f32⟩ : BufTy).Contents (Elt Ideal)) (j : S1024x1024.Idx)
    (r : ℝ) (hr : x1 j = (r : EReal)) :
    val_main_v7 (F := Ideal) x1 j = quant (x1 j) := by
  rw [val_main_v7_apply, val_main_v6_apply, Ideal.addf_def, Ideal.subf_def, quantised_apply]
  generalize quant (x1 j) = q
  rw [hr]
  exact add_sub_cancel_of_real r q

/-- The reference's result is `dense` of its two arguments when every weight is real. -/
theorem result_eq_dense (x0 : (⟨S16384x1024, .f32⟩ : BufTy).Contents (Elt Ideal))
    (x1 : (⟨S1024x1024, .f32⟩ : BufTy).Contents (Elt Ideal)) (hfin : ∀ j, ∃ r : ℝ, x1 j = (r : EReal)) :
    val_main_v8 (F := Ideal) x0 x1 = dense x0 x1 := by
  funext i
  rw [val_main_v8_apply]
  unfold dense
  refine Finset.sum_congr rfl fun k _ => ?_
  have el : lidx_main_v8 i k = ix2 (n0 := 16384) (n1 := 1024) (i 0) k :=
    funext fun a => Fin.ext (by match a with | ⟨0, _⟩ => rfl | ⟨1, _⟩ => rfl)
  have er : ridx_main_v8 i k = ix2 (n0 := 1024) (n1 := 1024) k (i 1) :=
    funext fun a => Fin.ext (by match a with | ⟨0, _⟩ => rfl | ⟨1, _⟩ => rfl)
  obtain ⟨r, hr⟩ := hfin (ridx_main_v8 i k)
  rw [straight_through_apply x1 _ r hr, el, er]

end Cert.ReferenceIdeal.RefValue

end
-- ==== Proof.WeightsReal.lean ====
/-
  From the precondition to "every weight is a real number".

  The precondition is the conjunction, over both argument arrays, of "every entry's absolute value is below +inf". An
  extended real x whose absolute value max x (-x) is below +inf is neither +inf nor -inf, so it is a real number. Only
  the weight array's half of the conjunction is needed.
-/
import proofs.«129732_j12446815224546_1_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Pre_finite_inputs.Real

open Cert.Pre_finite_inputs Idealize.ShloMosaic Idealize.ShloMosaic.ValueIdx

/-- The f32 word 0x7F800000 is +inf. -/
theorem inf_word : Ideal.ofBits .f32 0x7F800000#32 = (⊤ : EReal) := by
  simp [Ideal.ofBits, Ideal.ieee]

/-- An extended real whose absolute value compares below +inf is a real number. -/
theorem real_of_abs_lt_inf (x : EReal) (h : Ideal.cmp .olt (max x (-x)) (⊤ : EReal) = 1#1) : ∃ r : ℝ, x = (r : EReal) := by
  have hlt : max x (-x) < ⊤ := by
    by_contra hn
    unfold Ideal.cmp at h
    simp [hn] at h
  induction x using EReal.rec with
  | bot => simp at hlt
  | top => simp at hlt
  | coe r => exact ⟨r, rfl⟩

instance : Subsingleton S_.Idx := ⟨fun a b => funext fun d => d.elim0⟩

variable [Facts]
open Facts

/-- Under the precondition every entry of the second argument (the weights) is a real number. -/
theorem weights_real (a0 : FVec Ideal S16384x1024 .f32) (a1 : FVec Ideal S1024x1024 .f32)
    (h : fn (F := Ideal) a0 a1 = fun _ => 1#1) (j : S1024x1024.Idx) : ∃ r : ℝ, a1 j = (r : EReal) := by
  have h0 := congrFun h ix0
  dsimp only [fn] at h0
  have h1 := (IntOp.andi_eq_one.1 h0).2
  have h2 := Host.reduce_andi_all _ _ _ _ _ h1 j
  refine real_of_abs_lt_inf (a1 j) ?_
  rw [← inf_word]
  rw [cmpf_apply, broadcastInDim_apply _ bcast_S_S1024x1024 _ j ix0 (fun a => a.elim0)] at h2
  exact h2

end Cert.Pre_finite_inputs.Real

end
-- ==== Proof.Claims.lean ====
/-
  The five claims.

  The two kernel programs' frames are the generated frame runs; the reference has no kernel, and its frame is its
  generated run with the result dropped. The idealisation rewrote nothing, so `preserves` is trivial. For `algebraic`:
  the idealised kernel's result array ends at `dense` of its arguments (the kernel's run, read block by block), and the
  idealised reference's at its own composed term of arguments that agree with the kernel's; that term is `dense` as
  well because, under the precondition, every weight is a real number, which is what lets the reference's
  "raw + (quantised - raw)" collapse to the quantised weight.
-/
import proofs.«129732_j12446815224546_1_alg».proof.Defs
import proofs.«129732_j12446815224546_1_alg».proof.Proof.Gen.Kernel.Frame
import proofs.«129732_j12446815224546_1_alg».proof.Proof.Gen.KernelIdeal.Frame
import proofs.«129732_j12446815224546_1_alg».proof.Proof.Gen.ReferenceIdeal.Run
import proofs.«129732_j12446815224546_1_alg».proof.Proof.Gen.Pre_finite_inputs
import proofs.«129732_j12446815224546_1_alg».proof.Proof.KernelArray
import proofs.«129732_j12446815224546_1_alg».proof.Proof.ReferenceValue
import proofs.«129732_j12446815224546_1_alg».proof.Proof.WeightsReal

noncomputable section

open Idealize.ShloMosaic Idealize.ShloMosaic.TcCoe Idealize.SL.Sem

namespace Cert.Proof.Claims

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealised programs end with their result array at `dense` of the kernel's two argument arrays. -/
theorem algebraic : Cert.algebraic_KernelIdeal_ReferenceIdeal := by
  intro m ρ m' ρ' hpre hagree
  refine ⟨fun c => Cert.QuantDense.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2]
  exact Cert.ReferenceIdeal.RefValue.result_eq_dense _ _ (Cert.Pre_finite_inputs.Real.weights_real _ _ (hpre c))

end Cert.Proof.Claims

end
-- ==== Proof.lean ====
/-
  A dense layer with 2-bit quantised weights, against its straight-through reference.

  The kernel multiplies a [16384, 1024] activation matrix by a [1024, 1024] weight matrix whose every entry has first
  been quantised: clipped to [-1/2, 1/2], scaled by 2, rounded to the nearest integer with ties to even, and halved.
  It does so 512 rows at a time over a grid of 32 points, each point holding the whole weight matrix.

  The reference quantises the same way but multiplies by  raw + (quantised - raw),  a form whose derivative is that of
  the raw weights and whose value is the quantised weights. On the extended reals the two agree exactly when the raw
  weight is a real number, which the precondition (all inputs finite) supplies. Narrowing to bf16 is the identity on
  extended reals, and a tiled product into a zero accumulator and one whole product are the same sums, so both
  programs compute
      out (r, c) = sum over k < 1024 of x (r, k) * quant (w (k, c)).

  The modules: Spec (quant, dense, and the cancellation law), KernelBody (one body run's stored block as that sum),
  KernelArray (the 32 written blocks are the blocks of dense, and they cover the result), ReferenceValue (the
  reference's composed term is dense when the weights are real), WeightsReal (the precondition makes them real),
  LibMatmulRows (a rank-2 product read at an index), Claims (the five claims).
-/
import proofs.«129732_j12446815224546_1_alg».proof.Defs
import proofs.«129732_j12446815224546_1_alg».proof.Proof.Gen.Kernel
import proofs.«129732_j12446815224546_1_alg».proof.Proof.Gen.Kernel.Skeleton
import proofs.«129732_j12446815224546_1_alg».proof.Proof.Gen.Kernel.Launch
import proofs.«129732_j12446815224546_1_alg».proof.Proof.Gen.Kernel.Points
import proofs.«129732_j12446815224546_1_alg».proof.Proof.Gen.Kernel.Frame
import proofs.«129732_j12446815224546_1_alg».proof.Proof.Gen.KernelIdeal
import proofs.«129732_j12446815224546_1_alg».proof.Proof.Gen.KernelIdeal.Skeleton
import proofs.«129732_j12446815224546_1_alg».proof.Proof.Gen.KernelIdeal.Launch
import proofs.«129732_j12446815224546_1_alg».proof.Proof.Gen.KernelIdeal.Points
import proofs.«129732_j12446815224546_1_alg».proof.Proof.Gen.KernelIdeal.Frame
import proofs.«129732_j12446815224546_1_alg».proof.Proof.Gen.ReferenceIdeal
import proofs.«129732_j12446815224546_1_alg».proof.Proof.Gen.Pre_finite_inputs
import proofs.«129732_j12446815224546_1_alg».proof.Proof.Gen.KernelIdeal.Value
import proofs.«129732_j12446815224546_1_alg».proof.Proof.Gen.ReferenceIdeal.Run
import proofs.«129732_j12446815224546_1_alg».proof.Proof.Gen.ReferenceIdeal.Read
import proofs.«129732_j12446815224546_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference_ideal, Claims.preserves, Claims.algebraic⟩

end Cert.Proof

end
